-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x1024 : Shape := ⟨3, ![512, 64, 1024]⟩
abbrev S_ : Shape := ⟨0, ![]⟩

class Facts : Prop where
  bcast_S_S512x64x1024 : S_.BroadcastsInDim S512x64x1024 (![] : Fin 0 → Fin S512x64x1024.rank)
  reducesTo_S512x64x1024_S_d0_1_2 : S512x64x1024.ReducesTo [0, 1, 2] S_
  h_S_ : 0 < S_.numel

variable [Facts]

def fn_part1 {F : FTy → Type} [FloatOps F] (main_v13 : IVec S_ 1) (main_v16 : IVec S512x64x1024 1) : IVec S_ 1 :=
  let main_c_5 : IVec S_ 1 := constantI S_ 1 1#1
  let main_v17 : IVec S_ 1 := (fun x v => Host.reduce IntOp.andi x v reducesTo_S512x64x1024_S_d0_1_2 h_S_) main_v16 main_c_5
  let main_v18 : IVec S_ 1 := andi main_v13 main_v17
  main_v18

def fn {F : FTy → Type} [FloatOps F] (main_arg0 : FVec F S512x64x1024 .f32) (main_arg1 : FVec F S512x64x1024 .f32) (main_arg2 : FVec F S512x64x1024 .f32) (main_arg3 : FVec F S512x64x1024 .f32) : IVec S_ 1 :=
  let main_v0 : FVec F S512x64x1024 .f32 := Host.absf main_arg0
  let main_cst : FVec F S_ .f32 := constant S_ .f32 0x7F800000#32
  let main_v1 : FVec F S512x64x1024 .f32 := broadcastInDim S512x64x1024 ![] bcast_S_S512x64x1024 main_cst
  let main_v2 : IVec S512x64x1024 1 := cmpf .olt main_v0 main_v1
  let main_c : IVec S_ 1 := constantI S_ 1 1#1
  let main_v3 : IVec S_ 1 := (fun x v => Host.reduce IntOp.andi x v reducesTo_S512x64x1024_S_d0_1_2 h_S_) main_v2 main_c
  let main_v4 : FVec F S512x64x1024 .f32 := Host.absf main_arg1
  let main_cst_0 : FVec F S_ .f32 := constant S_ .f32 0x7F800000#32
  let main_v5 : FVec F S512x64x1024 .f32 := broadcastInDim S512x64x1024 ![] bcast_S_S512x64x1024 main_cst_0
  let main_v6 : IVec S512x64x1024 1 := cmpf .olt main_v4 main_v5
  let main_c_1 : IVec S_ 1 := constantI S_ 1 1#1
  let main_v7 : IVec S_ 1 := (fun x v => Host.reduce IntOp.andi x v reducesTo_S512x64x1024_S_d0_1_2 h_S_) main_v6 main_c_1
  let main_v8 : IVec S_ 1 := andi main_v3 main_v7
  let main_v9 : FVec F S512x64x1024 .f32 := Host.absf main_arg2
  let main_cst_2 : FVec F S_ .f32 := constant S_ .f32 0x7F800000#32
  let main_v10 : FVec F S512x64x1024 .f32 := broadcastInDim S512x64x1024 ![] bcast_S_S512x64x1024 main_cst_2
  let main_v11 : IVec S512x64x1024 1 := cmpf .olt main_v9 main_v10
  let main_c_3 : IVec S_ 1 := constantI S_ 1 1#1
  let main_v12 : IVec S_ 1 := (fun x v => Host.reduce IntOp.andi x v reducesTo_S512x64x1024_S_d0_1_2 h_S_) main_v11 main_c_3
  let main_v13 : IVec S_ 1 := andi main_v8 main_v12
  let main_v14 : FVec F S512x64x1024 .f32 := Host.absf main_arg3
  let main_cst_4 : FVec F S_ .f32 := constant S_ .f32 0x7F800000#32
  let main_v15 : FVec F S512x64x1024 .f32 := broadcastInDim S512x64x1024 ![] bcast_S_S512x64x1024 main_cst_4
  let main_v16 : IVec S512x64x1024 1 := cmpf .olt main_v14 main_v15
  fn_part1 (F := F) main_v13 main_v16
-- ==== Kernel.lean ====
abbrev S512x64x1024 : Shape := ⟨3, ![512, 64, 1024]⟩
abbrev S512x1 : Shape := ⟨2, ![512, 1]⟩
abbrev S16x64x1024 : Shape := ⟨3, ![16, 64, 1024]⟩
abbrev S16x1 : Shape := ⟨2, ![16, 1]⟩
abbrev S16x64x64 : Shape := ⟨3, ![16, 64, 64]⟩
abbrev S16x64 : Shape := ⟨2, ![16, 64]⟩
abbrev S16x64x1 : Shape := ⟨3, ![16, 64, 1]⟩
abbrev S16 : Shape := ⟨1, ![16]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S512x64x1024, .f32⟩
  | .hbm, ⟨1, _⟩ => ⟨S512x64x1024, .f32⟩
  | .hbm, ⟨2, _⟩ => ⟨S512x64x1024, .f32⟩
  | .hbm, ⟨3, _⟩ => ⟨S512x64x1024, .f32⟩
  | .hbm, ⟨4, _⟩ => ⟨S512x1, .f32⟩
  | .hbm, ⟨5, _⟩ => ⟨S512, .f32⟩
  | .local _ .vmem, ⟨0, _⟩ => ⟨S16x64x1024, .f32⟩
  | .local _ .vmem, ⟨1, _⟩ => ⟨S16x64x1024, .f32⟩
  | .local _ .vmem, ⟨2, _⟩ => ⟨S16x64x1024, .f32⟩
  | .local _ .vmem, ⟨3, _⟩ => ⟨S16x64x1024, .f32⟩
  | .local _ .vmem, ⟨4, _⟩ => ⟨S16x64x1024, .f32⟩
  | .local _ .vmem, ⟨5, _⟩ => ⟨S16x64x1024, .f32⟩
  | .local _ .vmem, ⟨6, _⟩ => ⟨S16x64x1024, .f32⟩
  | .local _ .vmem, ⟨7, _⟩ => ⟨S16x64x1024, .f32⟩
  | .local _ .vmem, ⟨8, _⟩ => ⟨S16x1, .f32⟩
  | .local _ .vmem, ⟨9, _⟩ => ⟨S16x1, .f32⟩
  | _, _ => ⟨S512x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S16x64x1024_S16x64x1024_0_0_0 : ∀ a, (![0, 0, 0] : Fin 3 → Nat) a + S16x64x1024.size a ≤ S16x64x1024.size a
  h_S16x64x1024 : 0 < S16x64x1024.numel
  reduces_S16x64x64_S16x64 : S16x64x64.Reduces [2] S16x64
  shapeCasts_S16x64_S16x64x1 : S16x64.ShapeCasts S16x64x1
  broadcasts_S16x64x1_S16x64x64 : S16x64x1.Broadcasts S16x64x64
  reduces_S16x64x1024_S16x64 : S16x64x1024.Reduces [2] S16x64
  broadcasts_S16x64x1_S16x64x1024 : S16x64x1.Broadcasts S16x64x1024
  reduces_S16x64_S16 : S16x64.Reduces [1] S16
  shapeCasts_S16_S16x1 : S16.ShapeCasts S16x1
  inb_S16x1_S16x1_0_0 : ∀ a, (![0, 0] : Fin 2 → Nat) a + S16x1.size a ≤ S16x1.size a
  h_S16x1 : 0 < S16x1.numel
  shapeCasts_S512x1_S512 : S512x1.ShapeCasts S512
  dot_S16x64x1024_S16x64x1024_S16x64x64_2_2_1_1_0_0_wf : DotDims.WF S16x64x1024 S16x64x1024 S16x64x64 [2] [2] [1] [1] [0] [0]
  dot_S16x64x64_S16x64x1024_S16x64x1024_2_1_1_2_0_0_wf : DotDims.WF S16x64x64 S16x64x1024 S16x64x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x1024.size a ≤ S512x64x1024.size a
  hwx0_0 : ∀ i : grid0.Coords, EltTy.bits .f32 = 32 ∨ (Rect.block (s := S512x64x1024) S16x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x1024.size a ≤ S512x64x1024.size a
  hwx0_1 : ∀ i : grid0.Coords, EltTy.bits .f32 = 32 ∨ (Rect.block (s := S512x64x1024) S16x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64x1024.size a ≤ S512x64x1024.size a
  hwx0_2 : ∀ i : grid0.Coords, EltTy.bits .f32 = 32 ∨ (Rect.block (s := S512x64x1024) S16x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64x1024.size a ≤ S512x64x1024.size a
  hwx0_3 : ∀ i : grid0.Coords, EltTy.bits .f32 = 32 ∨ (Rect.block (s := S512x64x1024) S16x64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S512x1.size a
  hwx0_4 : ∀ i : grid0.Coords, EltTy.bits .f32 = 32 ∨ (Rect.block (s := S512x1) S16x1.size (cc0_transform_4 i) (hinb0_4 i)).WholeWords (EltTy.packing .f32)

variable [Facts₀]

def dot_S16x64x1024_S16x64x1024_S16x64x64_2_2_1_1_0_0 : DotDims S16x64x1024 S16x64x1024 S16x64x64 where
  lhsContracting := [2]
  rhsContracting := [2]
  lhsNonContracting := [1]
  rhsNonContracting := [1]
  lhsBatch := [0]
  rhsBatch := [0]
  wf := dot_S16x64x1024_S16x64x1024_S16x64x64_2_2_1_1_0_0_wf
def dot_S16x64x64_S16x64x1024_S16x64x1024_2_1_1_2_0_0 : DotDims S16x64x64 S16x64x1024 S16x64x1024 where
  lhsContracting := [2]
  rhsContracting := [1]
  lhsNonContracting := [1]
  rhsNonContracting := [2]
  lhsBatch := [0]
  rhsBatch := [0]
  wf := dot_S16x64x64_S16x64x1024_S16x64x1024_2_1_1_2_0_0_wf

abbrev win0_0 : Pipeline.Window sig grid0 :=
  Pipeline.Window.ofSpec (Memref.whole main_arg0) S16x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x64x1024 : Shape := ⟨3, ![512, 64, 1024]⟩
abbrev S512x64x64 : Shape := ⟨3, ![512, 64, 64]⟩
abbrev S_ : Shape := ⟨0, ![]⟩
abbrev S512x64 : Shape := ⟨2, ![512, 64]⟩
abbrev S512x64x1 : Shape := ⟨3, ![512, 64, 1]⟩
abbrev S512 : Shape := ⟨1, ![512]⟩

abbrev nBuf : Space → Nat
  | .hbm => 63
  | .vmem => 0
  | .smem => 0
  | _ => 0

abbrev bufTy : (tb : Table) → Fin (tcTables nBuf tb) → BufTy
  | .hbm, ⟨0, _⟩ => ⟨S512x64x1024, .f32⟩
  | .hbm, ⟨1, _⟩ => ⟨S512x64x1024, .f32⟩
  | .hbm, ⟨2, _⟩ => ⟨S512x64x1024, .f32⟩
  | .hbm, ⟨3, _⟩ => ⟨S512x64x1024, .f32⟩
  | .hbm, ⟨4, _⟩ => ⟨S512x64x64, .f32⟩
  | .hbm, ⟨5, _⟩ => ⟨S_, .f32⟩
  | .hbm, ⟨6, _⟩ => ⟨S512x64, .f32⟩
  | .hbm, ⟨7, _⟩ => ⟨S512x64x1, .f32⟩
  | .hbm, ⟨8, _⟩ => ⟨S_, .f32⟩
  | .hbm, ⟨9, _⟩ => ⟨S512x64x1, .f32⟩
  | .hbm, ⟨10, _⟩ => ⟨S512x64x1, .f32⟩
  | .hbm, ⟨11, _⟩ => ⟨S512x64x64, .f32⟩
  | .hbm, ⟨12, _⟩ => ⟨S512x64x64, .i1⟩
  | .hbm, ⟨13, _⟩ => ⟨S_, .f32⟩
  | .hbm, ⟨14, _⟩ => ⟨S_, .f32⟩
  | .hbm, ⟨15, _⟩ => ⟨S512x64x64, .f32⟩
  | .hbm, ⟨16, _⟩ => ⟨S512x64x64, .f32⟩
  | .hbm, ⟨17, _⟩ => ⟨S_, .f32⟩
  | .hbm, ⟨18, _⟩ => ⟨S512x64x64, .f32⟩
  | .hbm, ⟨19, _⟩ => ⟨S512x64x64, .f32⟩
  | .hbm, ⟨20, _⟩ => ⟨S_, .f32⟩
  | .hbm, ⟨21, _⟩ => ⟨S512x64, .f32⟩
  | .hbm, ⟨22, _⟩ => ⟨S_, .f32⟩
  | .hbm, ⟨23, _⟩ => ⟨S512x64, .f32⟩
  | .hbm, ⟨24, _⟩ => ⟨S512x64, .f32⟩
  | .hbm, ⟨25, _⟩ => ⟨S512x64x1, .f32⟩
  | .hbm, ⟨26, _⟩ => ⟨S512x64x64, .f32⟩
  | .hbm, ⟨27, _⟩ => ⟨S512x64x64, .f32⟩
  | .hbm, ⟨28, _⟩ => ⟨S512x64x64, .f32⟩
  | .hbm, ⟨29, _⟩ => ⟨S_, .f32⟩
  | .hbm, ⟨30, _⟩ => ⟨S512x64, .f32⟩
  | .hbm, ⟨31, _⟩ => ⟨S512x64x1, .f32⟩
  | .hbm, ⟨32, _⟩ => ⟨S512x64x64, .f32⟩
  | .hbm, ⟨33, _⟩ => ⟨S512x64x64, .f32⟩
  | .hbm, ⟨34, _⟩ => ⟨S512x64x1024, .f32⟩
  | .hbm, ⟨35, _⟩ => ⟨S512x64x1024, .f32⟩
  | .hbm, ⟨36, _⟩ => ⟨S_, .f32⟩
  | .hbm, ⟨37, _⟩ => ⟨S512x64, .f32⟩
  | .hbm, ⟨38, _⟩ => ⟨S512x64x1, .f32⟩
  | .hbm, ⟨39, _⟩ => ⟨S512x64x1, .f32⟩
  | .hbm, ⟨40, _⟩ => ⟨S_, .f32⟩
  | .hbm, ⟨41, _⟩ => ⟨S512x64x1, .f32⟩
  | .hbm, ⟨42, _⟩ => ⟨S512x64x1, .f32⟩
  | .hbm, ⟨43, _⟩ => ⟨S512x64x1024, .f32⟩
  | .hbm, ⟨44, _⟩ => ⟨S512x64x1024, .f32⟩
  | .hbm, ⟨45, _⟩ => ⟨S512x64x1024, .f32⟩
  | .hbm, ⟨46, _⟩ => ⟨S_, .f32⟩
  | .hbm, ⟨47, _⟩ => ⟨S512x64, .f32⟩
  | .hbm, ⟨48, _⟩ => ⟨S512x64x1, .f32⟩
  | .hbm, ⟨49, _⟩ => ⟨S512x64x1, .f32⟩
  | .hbm, ⟨50, _⟩ => ⟨S_, .f32⟩
  | .hbm, ⟨51, _⟩ => ⟨S512x64x1, .f32⟩
  | .hbm, ⟨52, _⟩ => ⟨S512x64x1, .f32⟩
  | .hbm, ⟨53, _⟩ => ⟨S512x64x1024, .f32⟩
  | .hbm, ⟨54, _⟩ => ⟨S512x64x1024, .f32⟩
  | .hbm, ⟨55, _⟩ => ⟨S512x64x1024, .f32⟩
  | .hbm, ⟨56, _⟩ => ⟨S_, .f32⟩
  | .hbm, ⟨57, _⟩ => ⟨S512x64, .f32⟩
  | .hbm, ⟨58, _⟩ => ⟨S_, .f32⟩
  | .hbm, ⟨59, _⟩ => ⟨S512, .f32⟩
  | .hbm, ⟨60, _⟩ => ⟨S_, .f32⟩
  | .hbm, ⟨61, _⟩ => ⟨S512, .f32⟩
  | .hbm, ⟨62, _⟩ => ⟨S512, .f32⟩
  | _, _ => ⟨S512x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_call1_v2 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call2_v0 : Ref sig .tc := ⟨.hbm, 45, rfl⟩
abbrev main_call2_cst : Ref sig .tc := ⟨.hbm, 46, rfl⟩
abbrev main_call2_v1 : Ref sig .tc := ⟨.hbm, 47, rfl⟩
abbrev main_call2_v2 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_v36 : Ref sig .tc := ⟨.hbm, 62, rfl⟩

abbrev nD : Nat := 1
abbrev τ : Topo := Topo.v7x

variable {F : FTy → Type} [FloatOps F]

class Facts₀ : Prop where
  reducesTo_S512x64x64_S512x64_d2 : S512x64x64.ReducesTo [2] S512x64
  h_S_ : 0 < S_.numel
  bcast_S512x64_S512x64x1_0_1 : S512x64.BroadcastsInDim S512x64x1 (![0, 1] : Fin 2 → Fin S512x64x1.rank)
  bcast_S_S512x64x1 : S_.BroadcastsInDim S512x64x1 (![] : Fin 0 → Fin S512x64x1.rank)
  bcast_S512x64x1_S512x64x64_0_1_2 : S512x64x1.BroadcastsInDim S512x64x64 (![0, 1, 2] : Fin 3 → Fin S512x64x64.rank)
  bcast_S_S512x64x64 : S_.BroadcastsInDim S512x64x64 (![] : Fin 0 → Fin S512x64x64.rank)
  bcast_S_S512x64 : S_.BroadcastsInDim S512x64 (![] : Fin 0 → Fin S512x64.rank)
  reducesTo_S512x64x1024_S512x64_d2 : S512x64x1024.ReducesTo [2] S512x64
  bcast_S512x64x1_S512x64x1024_0_1_2 : S512x64x1.BroadcastsInDim S512x64x1024 (![0, 1, 2] : Fin 3 → Fin S512x64x1024.rank)
  reducesTo_S512x64_S512_d1 : S512x64.ReducesTo [1] S512
  bcast_S_S512 : S_.BroadcastsInDim S512 (![] : Fin 0 → Fin S512.rank)
  dot_S512x64x1024_S512x64x1024_S512x64x64_2_2_1_1_0_0_wf : DotDims.WF S512x64x1024 S512x64x1024 S512x64x64 [2] [2] [1] [1] [0] [0]
  dot_S512x64x64_S512x64x1024_S512x64x1024_2_1_1_2_0_0_wf : DotDims.WF S512x64x64 S512x64x1024 S512x64x1024 [2] [1] [1] [2] [0] [0]

variable [Facts₀]

def dot_S512x64x1024_S512x64x1024_S512x64x64_2_2_1_1_0_0 : DotDims S512x64x1024 S512x64x1024 S512x64x64 where
  lhsContracting := [2]
  rhsContracting := [2]
  lhsNonContracting := [1]
  rhsNonContracting := [1]
  lhsBatch := [0]
  rhsBatch := [0]
  wf := dot_S512x64x1024_S512x64x1024_S512x64x64_2_2_1_1_0_0_wf
def dot_S512x64x64_S512x64x1024_S512x64x1024_2_1_1_2_0_0 : DotDims S512x64x64 S512x64x1024 S512x64x1024 where
  lhsContracting := [2]
  rhsContracting := [1]
  lhsNonContracting := [1]
  rhsNonContracting := [2]
  lhsBatch := [0]
  rhsBatch := [0]
  wf := dot_S512x64x64_S512x64x1024_S512x64x1024_2_1_1_2_0_0_wf

class Facts : Prop extends Facts₀ where

variable [Facts]
-- ==== Proof.LibRowReduce.lean ====
/-
  Reading a two-dimensional value row by row on the extended reals.

  A row statistic kept as a column — a reduction of an [a, b] value over its last axis, viewed as [a, 1] and
  broadcast back to [a, b] — reads, at (p, j), the statistic of row p.  The maximum of a row is the fold of
  `max` over its entries from the starting value; the sum of a row is the finite sum of its entries.  The same
  two readings hold for a host reduction of an [a, b, c] array over its last axis, row (p, q).
-/
import Idealize.ShloMosaic.PureOps.Ideal.Laws
import Idealize.ShloMosaic.Lib.Pipeline.Value
import Idealize.ShloMosaic.Lib.ValueIdx

noncomputable section

namespace RowReduce

open Idealize.ShloMosaic Idealize.ShloMosaic.ValueIdx

/-- The maximum of a finite family of extended reals, folded from a starting value. -/
def foldMax {n : Nat} (init : EReal) (f : Fin n → EReal) : EReal :=
  (Finset.univ : Finset (Fin n)).fold max init f

/-- The f32 word of −∞ is the bottom of the extended reals, so it is neutral for `max`. -/
theorem max_negInf (y : EReal) : max (Ideal.ofBits .f32 0xFF800000#32) y = y := by
  simp [Ideal.ofBits, Ideal.ieee]

section Layout
variable {α : Type}

/-- A vector of `a` entries viewed as a column [a, 1] reads entry `p` at (p, 0). -/
theorem shapeCast_column_apply {a : Nat} (z : (⟨1, ![a]⟩ : Shape).Idx → α)
    (h : (⟨1, ![a]⟩ : Shape).ShapeCasts ⟨2, ![a, 1]⟩) (p : Fin a) (q : Fin 1) :
    shapeCast ⟨2, ![a, 1]⟩ z h (ix2 p q) = z (ix1 p) := by
  refine shapeCast_apply z h (ix2 p q) (ix1 p) ?_
  rw [Shape.rowMajor_val_one, Shape.rowMajor_val_two]
  show p.val = p.val * 1 + q.val
  have := q.isLt
  omega

/-- A column [a, 1] broadcast along its rows to [a, b] reads (p, 0) at (p, j). -/
theorem broadcastTo_column_apply {a b : Nat} (z : (⟨2, ![a, 1]⟩ : Shape).Idx → α)
    (h : (⟨2, ![a, 1]⟩ : Shape).Broadcasts ⟨2, ![a, b]⟩) (p : Fin a) (j : Fin b) :
    broadcastTo ⟨2, ![a, b]⟩ z h (ix2 p j) = z (ix2 p (0 : Fin 1)) := by
  refine broadcastTo_apply z h (ix2 p j) (ix2 p (0 : Fin 1)) fun c => ?_
  match c with
  | ⟨0, _⟩ =>
    show p.val = if a = 1 then 0 else p.val
    by_cases h1 : a = 1
    · rw [if_pos h1]; have := p.isLt; omega
    · rw [if_neg h1]
  | ⟨1, _⟩ =>
    show (0 : Nat) = if (1 : Nat) = 1 then 0 else j.val
    rw [if_pos rfl]

/-- So a row statistic `z` kept as a column and broadcast back reads `z p` at (p, j). -/
theorem column_broadcast_apply {a b : Nat} (z : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ z h1) h2 (ix2 p j) = z (ix1 p) :=
  (broadcastTo_column_apply _ h2 p j).trans (shapeCast_column_apply z h1 p 0)

end Layout

/-! ## A reduction over the last axis of a two-dimensional value -/

/-- Row index `p` with coordinate `k` put back on the last axis is (p, k). -/
theorem lift_last2 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum over the last axis, at row `p`: the fold of `max` over the row's entries. -/
theorem multiReduction_max_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction (F := Ideal) .maximumf [1] ⟨1, ![a]⟩ x acc h hφ hacc (ix1 p)
      = foldMax (Ideal.ofBits φ acc) fun k : Fin b => x (ix2 p k) := by
  refine (Ideal.multiReduction_maximumf_single x acc h hφ hacc (ix1 p)).trans ?_
  have hf : (x ∘ h.lift (ix1 p)) = fun k : Fin b => x (ix2 p k) := funext fun k => congrArg x (lift_last2 h p k)
  unfold foldMax
  exact congrArg (fun f => Finset.fold max (Ideal.ofBits φ acc) f (Finset.univ : Finset (Fin b))) hf

/-- The sum over the last axis, at row `p`: the sum of the row's entries. -/
theorem multiReduction_add_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (lift_last2 h p k)

/-! ## A host reduction over the last axis of a three-dimensional array -/

/-- Row index (p, q) with coordinate `k` put back on the last axis is (p, q, k). -/
theorem lift_last3 {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis, at row (p, q): the fold of `max` over the row's entries from the
    initial value. -/
theorem hostReduce_max_row {a b c : Nat} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = foldMax (init (Shape.Idx.first hu)) fun k : Fin c => x (ix3 p q k) := by
  refine (Host.reduce_eq_fold_single FloatOps.maximumf x init h' h hu (ix2 p q)).trans ?_
  have hf : (x ∘ h.lift (ix2 p q)) = fun k : Fin c => x (ix3 p q k) := funext fun k => congrArg x (lift_last3 h p q k)
  unfold foldMax
  exact congrArg (fun f => Finset.fold max (init (Shape.Idx.first hu)) f (Finset.univ : Finset (Fin c))) hf

end RowReduce

end
-- ==== Proof.LibBatchRows.lean ====
/-
  Reading a three-dimensional value [a, b, c] row by row on the extended reals.

  A statistic of each row (p, q) — a reduction over the last axis — kept with a unit last axis, [a, b, 1], and
  broadcast back along that axis reads, at (p, q, j), the statistic of row (p, q).  The sum of a row is the
  finite sum of its entries, and the maximum of a row is the fold of `max` over its entries from the starting
  value.
-/
import Idealize.ShloMosaic.PureOps.Ideal.Laws
import Idealize.ShloMosaic.Lib.Pipeline.Value
import Idealize.ShloMosaic.Lib.ValueIdx
import proofs.«117326_j85452669321805_2_alg».proof.Proof.LibRowReduce

noncomputable section

namespace BatchRows

open Idealize.ShloMosaic Idealize.ShloMosaic.ValueIdx RowReduce

section Layout
variable {α : Type}

/-- An [a, b] value viewed as [a, b, 1] reads entry (p, q) at (p, q, 0). -/
theorem shapeCast_keep_apply {a b : Nat} (z : (⟨2, ![a, b]⟩ : Shape).Idx → α)
    (h : (⟨2, ![a, b]⟩ : Shape).ShapeCasts ⟨3, ![a, b, 1]⟩) (p : Fin a) (q : Fin b) (t : Fin 1) :
    shapeCast ⟨3, ![a, b, 1]⟩ z h (ix3 p q t) = z (ix2 p q) := by
  refine shapeCast_apply z h (ix3 p q t) (ix2 p q) ?_
  rw [Shape.rowMajor_val_two, Shape.rowMajor_val_three]
  show p.val * b + q.val = (p.val * b + q.val) * 1 + t.val
  have := t.isLt
  omega

/-- An [a, b, 1] value broadcast along its last axis to [a, b, c] reads (p, q, 0) at (p, q, j). -/
theorem broadcastTo_keep_apply {a b c : Nat} (z : (⟨3, ![a, b, 1]⟩ : Shape).Idx → α)
    (h : (⟨3, ![a, b, 1]⟩ : Shape).Broadcasts ⟨3, ![a, b, c]⟩) (p : Fin a) (q : Fin b) (j : Fin c) :
    broadcastTo ⟨3, ![a, b, c]⟩ z h (ix3 p q j) = z (ix3 p q (0 : Fin 1)) := by
  refine broadcastTo_apply z h (ix3 p q j) (ix3 p q (0 : Fin 1)) fun d => ?_
  match d with
  | ⟨0, _⟩ =>
    show p.val = if a = 1 then 0 else p.val
    by_cases h1 : a = 1
    · rw [if_pos h1]; have := p.isLt; omega
    · rw [if_neg h1]
  | ⟨1, _⟩ =>
    show q.val = if b = 1 then 0 else q.val
    by_cases h1 : b = 1
    · rw [if_pos h1]; have := q.isLt; omega
    · rw [if_neg h1]
  | ⟨2, _⟩ =>
    show (0 : Nat) = if (1 : Nat) = 1 then 0 else j.val
    rw [if_pos rfl]

/-- So a row statistic `z` kept with a unit last axis and broadcast back reads `z (p, q)` at (p, q, j). -/
theorem keep_broadcast_apply {a b c : Nat} (z : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (p : Fin a) (q : Fin b) (j : Fin c) :
    broadcastTo ⟨3, ![a, b, c]⟩ (shapeCast ⟨3, ![a, b, 1]⟩ z h1) h2 (ix3 p q j) = z (ix2 p q) :=
  (broadcastTo_keep_apply _ h2 p q j).trans (shapeCast_keep_apply z h1 p q 0)

end Layout

/-! ## A reduction over the last axis of a three-dimensional value -/

/-- The sum over the last axis, at row (p, q): the sum of the row's entries. -/
theorem multiReduction_add_row3 {a b c : Nat} {φ : FTy} (x : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (p : Fin a) (q : Fin b) :
    multiReduction (F := Ideal) .add [2] ⟨2, ![a, b]⟩ x acc h hφ hacc (ix2 p q) = ∑ k : Fin c, x (ix3 p q k) := by
  refine (Ideal.multiReduction_add_single x acc h hφ hacc (ix2 p q)).trans ?_
  exact Finset.sum_congr rfl fun k _ => congrArg x (lift_last3 h p q k)

/-- The maximum over the last axis, at row (p, q): the fold of `max` over the row's entries. -/
theorem multiReduction_max_row3 {a b c : Nat} {φ : FTy} (x : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.maximumf.neutral φ hφ) (p : Fin a) (q : Fin b) :
    multiReduction (F := Ideal) .maximumf [2] ⟨2, ![a, b]⟩ x acc h hφ hacc (ix2 p q)
      = foldMax (Ideal.ofBits φ acc) fun k : Fin c => x (ix3 p q k) := by
  refine (Ideal.multiReduction_maximumf_single x acc h hφ hacc (ix2 p q)).trans ?_
  have hf : (x ∘ h.lift (ix2 p q)) = fun k : Fin c => x (ix3 p q k) :=
    funext fun k => congrArg x (lift_last3 h p q k)
  unfold foldMax
  exact congrArg (fun f => Finset.fold max (Ideal.ofBits φ acc) f (Finset.univ : Finset (Fin c))) hf

end BatchRows

end
-- ==== Proof.KernelOps.lean ====
/-
  The kernel body's operations on one block of sixteen batch elements, read at an index.

  Both matrix products keep the batch axis: the similarity product pairs row r of the first operand with row u
  of the second inside batch element b, and the context product pairs row r of the weights with column d of
  the second operand inside batch element b.  The reductions run over the last axis of a [16, 64, ·] value, and
  a per-row statistic is kept as [16, 64, 1] and broadcast back along the last axis.
-/
import proofs.«117326_j85452669321805_2_alg».proof.Proof.Gen.KernelIdeal
import proofs.«117326_j85452669321805_2_alg».proof.Proof.LibBatchRows
import Idealize.ShloMosaic.PureOps.Ideal.Laws
import Idealize.ShloMosaic.Lib.ValueIdx

noncomputable section

namespace Cert.KernelIdeal.Ops

open Cert.KernelIdeal Cert.KernelIdeal.Facts₀
open Idealize.ShloMosaic Idealize.ShloMosaic.ValueIdx RowReduce BatchRows

/-! ## The similarity product: [16, 64, 1024] × [16, 64, 1024] → [16, 64, 64], contracting the last axes -/

abbrev dSim := dot_S16x64x1024_S16x64x1024_S16x64x64_2_2_1_1_0_0

theorem sim_lhs0 (i : S16x64x64.Idx) (q : dSim.contr.Idx) : (dSim.lhsIdx i q 0).val = (i 0).val := by
  unfold DotDims.lhsIdx
  rw [dif_pos (show (0 : Fin S16x64x1024.rank) ∈ dSim.lhsBatch by decide)]
  rfl
theorem sim_lhs1 (i : S16x64x64.Idx) (q : dSim.contr.Idx) : (dSim.lhsIdx i q 1).val = (i 1).val := by
  unfold DotDims.lhsIdx
  rw [dif_neg (show ¬(1 : Fin S16x64x1024.rank) ∈ dSim.lhsBatch by decide),
    dif_pos (show (1 : Fin S16x64x1024.rank) ∈ dSim.lhsNonContracting by decide)]
  rfl
theorem sim_lhs2 (i : S16x64x64.Idx) (q : dSim.contr.Idx) :
    (dSim.lhsIdx i q 2).val = (q ⟨0, by decide⟩).val :=
  dSim.lhsIdx_val_of_single rfl i q
theorem sim_rhs0 (i : S16x64x64.Idx) (q : dSim.contr.Idx) : (dSim.rhsIdx i q 0).val = (i 0).val := by
  unfold DotDims.rhsIdx
  rw [dif_pos (show (0 : Fin S16x64x1024.rank) ∈ dSim.rhsBatch by decide)]
  rfl
theorem sim_rhs1 (i : S16x64x64.Idx) (q : dSim.contr.Idx) : (dSim.rhsIdx i q 1).val = (i 2).val := by
  unfold DotDims.rhsIdx
  rw [dif_neg (show ¬(1 : Fin S16x64x1024.rank) ∈ dSim.rhsBatch by decide),
    dif_pos (show (1 : Fin S16x64x1024.rank) ∈ dSim.rhsNonContracting by decide)]
  rfl
theorem sim_rhs2 (i : S16x64x64.Idx) (q : dSim.contr.Idx) :
    (dSim.rhsIdx i q 2).val = (q ⟨0, by decide⟩).val :=
  dSim.rhsIdx_val_of_single rfl i q

/-- The similarity product at (b, r, u): the inner product of row (b, r) and row (b, u). -/
theorem simMatmul_apply (x0 x1 : FVec Ideal S16x64x1024 .f32) (b : Fin 16) (r u : Fin 64) :
    matmul dot_S16x64x1024_S16x64x1024_S16x64x64_2_2_1_1_0_0 none x0 x1 (constant S16x64x64 .f32 0x00000000#32) (ix3 b r u)
      = ∑ k : Fin 1024, x0 (ix3 b r k) * x1 (ix3 b u k) := by
  simp only [matmul]
  rw [Ideal.matmul_constant_zero_apply, ← Equiv.sum_comp (contrEquiv1 dSim 1024 rfl rfl).symm]
  refine Finset.sum_congr rfl fun k _ => ?_
  have hk := contrEquiv1_symm_val dSim 1024 rfl rfl k
  have el : dSim.lhsIdx (ix3 b r u) ((contrEquiv1 dSim 1024 rfl rfl).symm k) = ix3 b r k :=
    funext fun a => Fin.ext (by
      match a with
      | ⟨0, _⟩ => exact sim_lhs0 _ _
      | ⟨1, _⟩ => exact sim_lhs1 _ _
      | ⟨2, _⟩ => exact (sim_lhs2 _ _).trans hk)
  have er : dSim.rhsIdx (ix3 b r u) ((contrEquiv1 dSim 1024 rfl rfl).symm k) = ix3 b u k :=
    funext fun a => Fin.ext (by
      match a with
      | ⟨0, _⟩ => exact sim_rhs0 _ _
      | ⟨1, _⟩ => exact sim_rhs1 _ _
      | ⟨2, _⟩ => exact (sim_rhs2 _ _).trans hk)
  rw [el, er]

/-! ## The context product: [16, 64, 64] × [16, 64, 1024] → [16, 64, 1024], contracting words -/

abbrev dCtx := dot_S16x64x64_S16x64x1024_S16x64x1024_2_1_1_2_0_0

theorem ctx_lhs0 (i : S16x64x1024.Idx) (q : dCtx.contr.Idx) : (dCtx.lhsIdx i q 0).val = (i 0).val := by
  unfold DotDims.lhsIdx
  rw [dif_pos (show (0 : Fin S16x64x64.rank) ∈ dCtx.lhsBatch by decide)]
  rfl
theorem ctx_lhs1 (i : S16x64x1024.Idx) (q : dCtx.contr.Idx) : (dCtx.lhsIdx i q 1).val = (i 1).val := by
  unfold DotDims.lhsIdx
  rw [dif_neg (show ¬(1 : Fin S16x64x64.rank) ∈ dCtx.lhsBatch by decide),
    dif_pos (show (1 : Fin S16x64x64.rank) ∈ dCtx.lhsNonContracting by decide)]
  rfl
theorem ctx_lhs2 (i : S16x64x1024.Idx) (q : dCtx.contr.Idx) :
    (dCtx.lhsIdx i q 2).val = (q ⟨0, by decide⟩).val :=
  dCtx.lhsIdx_val_of_single rfl i q
theorem ctx_rhs0 (i : S16x64x1024.Idx) (q : dCtx.contr.Idx) : (dCtx.rhsIdx i q 0).val = (i 0).val := by
  unfold DotDims.rhsIdx
  rw [dif_pos (show (0 : Fin S16x64x1024.rank) ∈ dCtx.rhsBatch by decide)]
  rfl
theorem ctx_rhs1 (i : S16x64x1024.Idx) (q : dCtx.contr.Idx) :
    (dCtx.rhsIdx i q 1).val = (q ⟨0, by decide⟩).val :=
  dCtx.rhsIdx_val_of_single rfl i q
theorem ctx_rhs2 (i : S16x64x1024.Idx) (q : dCtx.contr.Idx) : (dCtx.rhsIdx i q 2).val = (i 2).val := by
  unfold DotDims.rhsIdx
  rw [dif_neg (show ¬(2 : Fin S16x64x1024.rank) ∈ dCtx.rhsBatch by decide),
    dif_pos (show (2 : Fin S16x64x1024.rank) ∈ dCtx.rhsNonContracting by decide)]
  rfl

/-- The context product at (b, r, d): the weights of row (b, r) against column d of batch element b. -/
theorem ctxMatmul_apply (w : FVec Ideal S16x64x64 .f32) (x3 : FVec Ideal S16x64x1024 .f32) (b : Fin 16) (r : Fin 64)
    (d : Fin 1024) :
    matmul dot_S16x64x64_S16x64x1024_S16x64x1024_2_1_1_2_0_0 none w x3 (constant S16x64x1024 .f32 0x00000000#32) (ix3 b r d)
      = ∑ u : Fin 64, w (ix3 b r u) * x3 (ix3 b u d) := by
  simp only [matmul]
  rw [Ideal.matmul_constant_zero_apply, ← Equiv.sum_comp (contrEquiv1 dCtx 64 rfl rfl).symm]
  refine Finset.sum_congr rfl fun k _ => ?_
  have hk := contrEquiv1_symm_val dCtx 64 rfl rfl k
  have el : dCtx.lhsIdx (ix3 b r d) ((contrEquiv1 dCtx 64 rfl rfl).symm k) = ix3 b r k :=
    funext fun a => Fin.ext (by
      match a with
      | ⟨0, _⟩ => exact ctx_lhs0 _ _
      | ⟨1, _⟩ => exact ctx_lhs1 _ _
      | ⟨2, _⟩ => exact (ctx_lhs2 _ _).trans hk)
  have er : dCtx.rhsIdx (ix3 b r d) ((contrEquiv1 dCtx 64 rfl rfl).symm k) = ix3 b k d :=
    funext fun a => Fin.ext (by
      match a with
      | ⟨0, _⟩ => exact ctx_rhs0 _ _
      | ⟨1, _⟩ => exact (ctx_rhs1 _ _).trans hk
      | ⟨2, _⟩ => exact ctx_rhs2 _ _)
  rw [el, er]

/-! ## Row reductions and row statistics, in the body's spelling -/

/-- The sum over the 64 words of row (b, r). -/
theorem sum64_apply (v : FVec Ideal S16x64x64 .f32) (h : S16x64x64.Reduces [2] S16x64) (hφ : FKind.Formats .f32)
    (hacc : (0x00000000#32 : BitVec 32) = 0x00000000#32) (b : Fin 16) (r : Fin 64) :
    multiReduction .add [2] S16x64 v 0x00000000#32 h hφ hacc (ix2 b r) = ∑ u : Fin 64, v (ix3 b r u) :=
  multiReduction_add_row3 v 0x00000000#32 h hφ hacc b r

/-- The maximum over the 64 words of row (b, r), from -∞. -/
theorem max64_apply (v : FVec Ideal S16x64x64 .f32) (h : S16x64x64.Reduces [2] S16x64) (hφ : FKind.Formats .f32)
    (hacc : (0xFF800000#32 : BitVec 32) = 0xFF800000#32) (b : Fin 16) (r : Fin 64) :
    multiReduction .maximumf [2] S16x64 v 0xFF800000#32 h hφ hacc (ix2 b r)
      = foldMax (Ideal.ofBits .f32 0xFF800000#32) fun u : Fin 64 => v (ix3 b r u) :=
  multiReduction_max_row3 v 0xFF800000#32 h hφ hacc b r

/-- The sum over the 1024 features of row (b, r). -/
theorem sum1024_apply (v : FVec Ideal S16x64x1024 .f32) (h : S16x64x1024.Reduces [2] S16x64) (hφ : FKind.Formats .f32)
    (hacc : (0x00000000#32 : BitVec 32) = 0x00000000#32) (b : Fin 16) (r : Fin 64) :
    multiReduction .add [2] S16x64 v 0x00000000#32 h hφ hacc (ix2 b r) = ∑ d : Fin 1024, v (ix3 b r d) :=
  multiReduction_add_row3 v 0x00000000#32 h hφ hacc b r

/-- The sum over the 64 regions of batch element b. -/
theorem sumRegions_apply (v : FVec Ideal S16x64 .f32) (h : S16x64.Reduces [1] S16) (hφ : FKind.Formats .f32)
    (hacc : (0x00000000#32 : BitVec 32) = 0x00000000#32) (b : Fin 16) :
    multiReduction .add [1] S16 v 0x00000000#32 h hφ hacc (ix1 b) = ∑ r : Fin 64, v (ix2 b r) :=
  multiReduction_add_row v 0x00000000#32 h hφ hacc b

/-- A per-row statistic kept as [16, 64, 1] reads the statistic of row (b, r). -/
theorem keep_apply {α : Type} (z : S16x64.Idx → α) (h : S16x64.ShapeCasts S16x64x1) (b : Fin 16) (r : Fin 64) (t : Fin 1) :
    shapeCast S16x64x1 z h (ix3 b r t) = z (ix2 b r) :=
  shapeCast_keep_apply z h b r t

/-- … broadcast over the 64 words … -/
theorem spread64_apply {α : Type} (z : S16x64x1.Idx → α) (h : S16x64x1.Broadcasts S16x64x64) (b : Fin 16) (r u : Fin 64) :
    broadcastTo S16x64x64 z h (ix3 b r u) = z (ix3 b r (0 : Fin 1)) :=
  broadcastTo_keep_apply z h b r u

/-- … or over the 1024 features. -/
theorem spread1024_apply {α : Type} (z : S16x64x1.Idx → α) (h : S16x64x1.Broadcasts S16x64x1024) (b : Fin 16) (r : Fin 64) (d : Fin 1024) :
    broadcastTo S16x64x1024 z h (ix3 b r d) = z (ix3 b r (0 : Fin 1)) :=
  broadcastTo_keep_apply z h b r d

/-- A per-batch-element value kept as a column [16, 1] reads the value of batch element b. -/
theorem column_apply {α : Type} (z : S16.Idx → α) (h : S16.ShapeCasts S16x1) (b : Fin 16) (t : Fin 1) :
    shapeCast S16x1 z h (ix2 b t) = z (ix1 b) :=
  shapeCast_column_apply z h b t

end Cert.KernelIdeal.Ops

end
-- ==== Proof.Spec.lean ====
/-
  The score of one batch element, as mathematics on the extended reals.

  One batch element carries four 64 × 1024 matrices: the masked region and word features A and W, the raw
  region features R and the raw word features Wr.  The similarity of region r and word u is the inner product
  of row r of A and row u of W.  A similarity below its row's mean is replaced by the sentinel -10000; the
  surviving row, scaled by 9, is turned into softmax weights (subtract the row maximum, exponentiate, divide
  by the row's sum).  The weights mix the rows of Wr into one context vector per region.  Each context
  vector and each raw region vector is divided by its Euclidean length plus 1e-8, their inner product is the
  cosine of region r, and the score is the mean of the 64 cosines.
-/
import Idealize.ShloMosaic.PureOps.Ideal
import Idealize.ShloMosaic.Lib.ValueIdx
import proofs.«117326_j85452669321805_2_alg».proof.Proof.LibRowReduce

noncomputable section

namespace FragSim

open Idealize.ShloMosaic Idealize.ShloMosaic.ValueIdx RowReduce

/-- One batch element's 64 × 1024 matrix. -/
abbrev Mat : Type := Fin 64 → Fin 1024 → EReal

/-- Batch element n of a [B, 64, 1024] array. -/
def slice {B : Nat} (x : (⟨3, ![B, 64, 1024]⟩ : Shape).Idx → EReal) (n : Fin B) : Mat :=
  fun r d => x (ix3 n r d)

/-- The similarity of region r and word u: the inner product of their masked feature rows. -/
def sim (A W : Mat) (r u : Fin 64) : EReal := ∑ k : Fin 1024, A r k * W u k

/-- The mean similarity of region r over the 64 words. -/
def tau (A W : Mat) (r : Fin 64) : EReal :=
  Ideal.div (∑ u : Fin 64, sim A W r u) (Ideal.ofBits .f32 0x42800000#32)

/-- The softmax logit: the similarity where it reaches the row mean, the sentinel -10000 elsewhere, times 9. -/
def logit (A W : Mat) (r u : Fin 64) : EReal :=
  Scalar.select (Ideal.cmp .oge (sim A W r u) (tau A W r)) (sim A W r u) (Ideal.ofBits .f32 0xC61C4000#32)
    * Ideal.ofBits .f32 0x41100000#32

/-- The largest logit of row r (the fold of max from -∞). -/
def rowMax (A W : Mat) (r : Fin 64) : EReal :=
  foldMax (Ideal.ofBits .f32 0xFF800000#32) fun u : Fin 64 => logit A W r u

/-- The shifted exponential of a logit. -/
def ex (A W : Mat) (r u : Fin 64) : EReal := Ideal.exp (logit A W r u - rowMax A W r)

/-- The softmax weight of word u for region r. -/
def attn (A W : Mat) (r u : Fin 64) : EReal := Ideal.div (ex A W r u) (∑ u' : Fin 64, ex A W r u')

/-- The context vector of region r: the raw word rows mixed by the softmax weights. -/
def ctx (A W Wr : Mat) : Mat := fun r d => ∑ u : Fin 64, attn A W r u * Wr u d

/-- Each row divided by its Euclidean length plus 1e-8. -/
def unitRow (X : Mat) : Mat := fun r d =>
  Ideal.div (X r d) (Ideal.sqrt (∑ d' : Fin 1024, X r d' * X r d') + Ideal.ofBits .f32 0x322BCC77#32)

/-- The cosine of region r: the inner product of its normalised raw row and its normalised context row. -/
def cosine (A W R Wr : Mat) (r : Fin 64) : EReal :=
  ∑ d : Fin 1024, unitRow R r d * unitRow (ctx A W Wr) r d

/-- The score of the batch element: the mean of the 64 cosines. -/
def score (A W R Wr : Mat) : EReal :=
  Ideal.div (∑ r : Fin 64, cosine A W R Wr r) (Ideal.ofBits .f32 0x42800000#32)

end FragSim

end
-- ==== Proof.KernelValue.lean ====
/-
  What one grid point computes: the score of each of its sixteen batch elements.

  The body's arithmetic is one pure term of the four input blocks.  Read at an index it unfolds, operation by
  operation, to the quantities of the specification: the similarities, their row mean, the masked and scaled
  logits, the row maximum, the shifted exponentials and their row sums, the softmax weights, the context
  vectors, both length normalisations, the cosines and their mean.  Entry (b, 0) of the stored block is the
  score of the b-th slices of the four blocks.
-/
import proofs.«117326_j85452669321805_2_alg».proof.Proof.Gen.KernelIdeal.Skeleton
import proofs.«117326_j85452669321805_2_alg».proof.Proof.KernelOps
import proofs.«117326_j85452669321805_2_alg».proof.Proof.Spec

noncomputable section

namespace Cert.KernelIdeal.KValue

open Cert.KernelIdeal Cert.KernelIdeal.Gen Cert.KernelIdeal.Facts₀ Cert.KernelIdeal.Ops
open Idealize.ShloMosaic Idealize.ShloMosaic.ValueIdx FragSim RowReduce

/-! ## Elementwise operations at an index -/

theorem exp_apply {s : Shape} (v : FVec Ideal s .f32) (i : s.Idx) : exp v i = Ideal.exp (v i) := rfl
theorem sqrt_apply {s : Shape} (v : FVec Ideal s .f32) (i : s.Idx) : sqrt v i = Ideal.sqrt (v i) := rfl
theorem scalar_ofBits (w : BitVec 32) : Scalar.ofBits (F := Ideal) .f32 w = Ideal.ofBits .f32 w := rfl

/-- Read a payload at an index: push the index through the elementwise operations, the two products and the row
    statistics, and read each row reduction as a sum or a fold over its row. -/
macro "read_at_index" : tactic =>
  `(tactic| repeat (first
      | simp only [divf_apply, mulf_apply, subf_apply, addf_apply, exp_apply, sqrt_apply, broadcast_apply,
          select_apply, cmpf_apply, ctxMatmul_apply, simMatmul_apply, keep_apply, spread64_apply,
          spread1024_apply, column_apply, scalar_ofBits, Ideal.cmpf_def]
      | rw [sum64_apply]
      | rw [max64_apply]
      | rw [sum1024_apply]
      | rw [sumRegions_apply]))

/-! ## The three payloads at an index -/

/-- The squared length of raw region row (b, r). -/
theorem sqLen_apply (x2 : Vec Ideal S16x64x1024 .f32) (b : Fin 16) (r : Fin 64) (t : Fin 1) :
    k0_pay3 (F := Ideal) x2 (ix3 b r t) = ∑ d : Fin 1024, x2 (ix3 b r d) * x2 (ix3 b r d) := by
  unfold k0_pay3
  read_at_index

/-- The normalised context vector of region (b, r) at feature d. -/
theorem unitCtx_apply (x0 x1 x3 : Vec Ideal S16x64x1024 .f32) (b : Fin 16) (r : Fin 64) (d : Fin 1024) :
    k0_pay2 (F := Ideal) x0 x1 x3 (ix3 b r d) = unitRow (ctx (slice x0 b) (slice x1 b) (slice x3 b)) r d := by
  unfold k0_pay2
  read_at_index
  simp only [unitRow, ctx, attn, ex, rowMax, logit, tau, sim, slice]

/-- The mean over the regions of the inner products of the two normalised rows. -/
theorem mean_apply (v2 : Vec Ideal S16x64x1024 .f32) (v32 : FVec Ideal S16x64x1024 .f32)
    (v35 : FVec Ideal S16x64x1 .f32) (b : Fin 16) (t : Fin 1) :
    k0_pay1 (F := Ideal) v2 v32 v35 (ix2 b t)
      = Ideal.div (∑ r : Fin 64, ∑ d : Fin 1024,
          Ideal.div (v2 (ix3 b r d)) (Ideal.sqrt (v35 (ix3 b r (0 : Fin 1))) + Ideal.ofBits .f32 0x322BCC77#32)
            * v32 (ix3 b r d)) (Ideal.ofBits .f32 0x42800000#32) := by
  unfold k0_pay1
  read_at_index
  congr 1
  refine Finset.sum_congr rfl fun r _ => ?_
  read_at_index

/-- Entry (b, 0) of what a grid point stores: the score of the b-th slices of its four input blocks. -/
theorem body_apply (x0 x1 x2 x3 : Vec Ideal S16x64x1024 .f32) (b : Fin 16) (t : Fin 1) :
    k0_pay1 (F := Ideal) x2 (k0_pay2 x0 x1 x3) (k0_pay3 x2) (ix2 b t)
      = score (slice x0 b) (slice x1 b) (slice x2 b) (slice x3 b) := by
  rw [mean_apply]
  simp only [unitCtx_apply, sqLen_apply]
  rfl

end Cert.KernelIdeal.KValue

end
-- ==== Proof.Scores.lean ====
/-
  The scores of all 512 batch elements, as arrays.
-/
import proofs.«117326_j85452669321805_2_alg».proof.Proof.Spec

noncomputable section

namespace FragSim

open Idealize.ShloMosaic Idealize.ShloMosaic.ValueIdx

/-- A [512, 64, 1024] argument array on the extended reals. -/
abbrev Arr : Type := (⟨3, ![512, 64, 1024]⟩ : Shape).Idx → EReal

/-- The score of batch element n of the four argument arrays. -/
def scoreAt (A W R Wr : Arr) (n : Fin 512) : EReal := score (slice A n) (slice W n) (slice R n) (slice Wr n)

/-- The [512, 1] column of scores. -/
def scoreColumn (A W R Wr : Arr) : (⟨2, ![512, 1]⟩ : Shape).Idx → EReal :=
  fun i => scoreAt A W R Wr ⟨(i 0).val, idx2_lt0 i⟩

/-- The [512] vector of scores. -/
def scoreVec (A W R Wr : Arr) : (⟨1, ![512]⟩ : Shape).Idx → EReal :=
  fun i => scoreAt A W R Wr ⟨(i 0).val, (i 0).isLt⟩

end FragSim

end
-- ==== Proof.KernelRun.lean ====
/-
  The kernel's run: its result holds the score of every batch element.

  Grid point t works on batch elements 16 t … 16 t + 15: each input block is those sixteen slices of its
  argument array, and the stored [16, 1] block is rows 16 t … 16 t + 15 of the [512, 1] result.  Entry (b, 0)
  of the stored block is the score of batch element 16 t + b, so every grid point writes a block of the one
  column of scores, and the 32 blocks cover the column.  The host then drops the unit axis: entry n of the
  final [512] result is the score of batch element n.
-/
import proofs.«117326_j85452669321805_2_alg».proof.Proof.Gen.KernelIdeal.Frame
import proofs.«117326_j85452669321805_2_alg».proof.Proof.KernelValue
import proofs.«117326_j85452669321805_2_alg».proof.Proof.Scores
import Idealize.ShloMosaic.Lib.Pipeline.Value
import Idealize.ShloMosaic.Lib.StableHlo.Run
import Idealize.ShloMosaic.Lib.Tactic

noncomputable section

namespace Cert.KernelIdeal.KRun

open Cert.KernelIdeal Cert.KernelIdeal.Gen Cert.KernelIdeal.KValue
open Idealize.ShloMosaic Idealize.ShloMosaic.TcCoe Idealize.ShloMosaic.ValueIdx Idealize.SL.Sem FragSim
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- At grid point t every window's block index is (t, 0, …): decided over the 32 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = t.val ∧ win0_4.index t (1 : Fin 2) = 0) :=
  (by decide +kernel : ∀ t : Fin grid0.N, _)

/-- Entry (b, r, d) of window 0's block at point t is entry (16 t + b, r, d) of its argument array. -/
theorem blk0_apply (c : Dev nD) (t : Fin cfg0.N) (b : Fin 16) (r : Fin 64) (d : Fin 1024) (k : Fin 512)
    (hk : k.val = 16 * t.val + b.val) :
    (iblk m c 0 t : Vec Ideal S16x64x1024 .f32) (ix3 b r d)
      = (m ((c : Thread nD τ).loc main_arg0) : Arr) (ix3 k r d) := by
  have e0 := (idx_facts t).1.1
  have e1 := (idx_facts t).1.2.1
  have e2 := (idx_facts t).1.2.2
  unfold iblk
  rw [View.read_apply]
  show m ((c : Thread nD τ).loc main_arg0) (((cfg0.win 0).blk t).view.emb (ix3 b r d)) = _
  refine congrArg _ (funext fun a => Fin.ext ?_)
  match a with
  | ⟨0, _⟩ => show win0_0.index t (0 : Fin 3) * 16 + 1 * b.val = k.val; rw [e0, hk]; omega
  | ⟨1, _⟩ => show win0_0.index t (1 : Fin 3) * 64 + 1 * r.val = r.val; rw [e1]; omega
  | ⟨2, _⟩ => show win0_0.index t (2 : Fin 3) * 1024 + 1 * d.val = d.val; rw [e2]; omega

/-- Entry (b, r, d) of window 1's block at point t is entry (16 t + b, r, d) of its argument array. -/
theorem blk1_apply (c : Dev nD) (t : Fin cfg0.N) (b : Fin 16) (r : Fin 64) (d : Fin 1024) (k : Fin 512)
    (hk : k.val = 16 * t.val + b.val) :
    (iblk m c 1 t : Vec Ideal S16x64x1024 .f32) (ix3 b r d)
      = (m ((c : Thread nD τ).loc main_arg1) : Arr) (ix3 k r d) := by
  have e0 := (idx_facts t).2.1.1
  have e1 := (idx_facts t).2.1.2.1
  have e2 := (idx_facts t).2.1.2.2
  unfold iblk
  rw [View.read_apply]
  show m ((c : Thread nD τ).loc main_arg1) (((cfg0.win 1).blk t).view.emb (ix3 b r d)) = _
  refine congrArg _ (funext fun a => Fin.ext ?_)
  match a with
  | ⟨0, _⟩ => show win0_1.index t (0 : Fin 3) * 16 + 1 * b.val = k.val; rw [e0, hk]; omega
  | ⟨1, _⟩ => show win0_1.index t (1 : Fin 3) * 64 + 1 * r.val = r.val; rw [e1]; omega
  | ⟨2, _⟩ => show win0_1.index t (2 : Fin 3) * 1024 + 1 * d.val = d.val; rw [e2]; omega

/-- Entry (b, r, d) of window 2's block at point t is entry (16 t + b, r, d) of its argument array. -/
theorem blk2_apply (c : Dev nD) (t : Fin cfg0.N) (b : Fin 16) (r : Fin 64) (d : Fin 1024) (k : Fin 512)
    (hk : k.val = 16 * t.val + b.val) :
    (iblk m c 2 t : Vec Ideal S16x64x1024 .f32) (ix3 b r d)
      = (m ((c : Thread nD τ).loc main_arg2) : Arr) (ix3 k r d) := by
  have e0 := (idx_facts t).2.2.1.1
  have e1 := (idx_facts t).2.2.1.2.1
  have e2 := (idx_facts t).2.2.1.2.2
  unfold iblk
  rw [View.read_apply]
  show m ((c : Thread nD τ).loc main_arg2) (((cfg0.win 2).blk t).view.emb (ix3 b r d)) = _
  refine congrArg _ (funext fun a => Fin.ext ?_)
  match a with
  | ⟨0, _⟩ => show win0_2.index t (0 : Fin 3) * 16 + 1 * b.val = k.val; rw [e0, hk]; omega
  | ⟨1, _⟩ => show win0_2.index t (1 : Fin 3) * 64 + 1 * r.val = r.val; rw [e1]; omega
  | ⟨2, _⟩ => show win0_2.index t (2 : Fin 3) * 1024 + 1 * d.val = d.val; rw [e2]; omega

/-- Entry (b, r, d) of window 3's block at point t is entry (16 t + b, r, d) of its argument array. -/
theorem blk3_apply (c : Dev nD) (t : Fin cfg0.N) (b : Fin 16) (r : Fin 64) (d : Fin 1024) (k : Fin 512)
    (hk : k.val = 16 * t.val + b.val) :
    (iblk m c 3 t : Vec Ideal S16x64x1024 .f32) (ix3 b r d)
      = (m ((c : Thread nD τ).loc main_arg3) : Arr) (ix3 k r d) := by
  have e0 := (idx_facts t).2.2.2.1.1
  have e1 := (idx_facts t).2.2.2.1.2.1
  have e2 := (idx_facts t).2.2.2.1.2.2
  unfold iblk
  rw [View.read_apply]
  show m ((c : Thread nD τ).loc main_arg3) (((cfg0.win 3).blk t).view.emb (ix3 b r d)) = _
  refine congrArg _ (funext fun a => Fin.ext ?_)
  match a with
  | ⟨0, _⟩ => show win0_3.index t (0 : Fin 3) * 16 + 1 * b.val = k.val; rw [e0, hk]; omega
  | ⟨1, _⟩ => show win0_3.index t (1 : Fin 3) * 64 + 1 * r.val = r.val; rw [e1]; omega
  | ⟨2, _⟩ => show win0_3.index t (2 : Fin 3) * 1024 + 1 * d.val = d.val; rw [e2]; omega

/-- WHAT POINT t WRITES BACK is block t of the column of scores. -/
theorem flushed_eq (c : Dev nD) (t : Fin cfg0.N) :
    (dats m 0 c).flushed 4 t = ((cfg0.win 4).blk t).view.read (Elt Ideal)
      (scoreColumn (m ((c : Thread nD τ).loc main_arg0)) (m ((c : Thread nD τ).loc main_arg1))
        (m ((c : Thread nD τ).loc main_arg2)) (m ((c : Thread nD τ).loc main_arg3))) := by
  show (cfg0.win 4).cut (grid0.coords t) ((dats m 0 c).after 4 t) = _
  rw [after0_4]
  unfold out0_4
  rw [View.canon_unit_zero hz2]
  simp only [View.ld_unit_zero (S := S16x64x1024) hz3]
  funext y
  obtain ⟨b, z, rfl⟩ : ∃ (b : Fin 16) (z : Fin 1), y = ix2 b z := ⟨y 0, y 1, eq_ix2 y⟩
  show k0_pay1 (iblk m c 2 t) (k0_pay2 (iblk m c 0 t) (iblk m c 1 t) (iblk m c 3 t)) (k0_pay3 (iblk m c 2 t)) (ix2 b z)
    = scoreColumn _ _ _ _ (((cfg0.win 4).blk t).view.emb (ix2 b z))
  refine (body_apply (iblk m c 0 t) (iblk m c 1 t) (iblk m c 2 t) (iblk m c 3 t) b z).trans ?_
  have e4 := (idx_facts t).2.2.2.2.1
  have hk : ((((cfg0.win 4).blk t).view.emb (ix2 b z)) 0).val = 16 * t.val + b.val := by
    show win0_4.index t (0 : Fin 2) * 16 + 1 * b.val = _
    rw [e4]; omega
  unfold scoreColumn scoreAt
  congr 1 <;> funext r d
  · exact blk0_apply m c t b r d _ hk
  · exact blk1_apply m c t b r d _ hk
  · exact blk2_apply m c t b r d _ hk
  · exact blk3_apply m c t b r d _ hk

/-- An index of the result column is in point t's block iff each coordinate is in the block's range. -/
theorem mem_blk (t : Fin cfg0.N) (i : S512x1.Idx) :
    i ∈ ((cfg0.win 4).blk t).view.set ↔ ∀ a : Fin 2, win0_4.index t a * S16x1.size a ≤ (i a).val
      ∧ (i a).val < win0_4.index t a * S16x1.size a + S16x1.size a := by
  show i ∈ ((View.whole main_v0).slice (win0_4.rect t)).set ↔ _
  rw [View.set_slice_whole, Rect.mem_set_unit]
  exact Iff.rfl

/-- Row n of the column is written by grid point n / 16. -/
theorem cover (i : S512x1.Idx) :
    ∃ t : Fin cfg0.N, (cfg0.win 4).flush t = true ∧ i ∈ ((cfg0.win 4).blk t).view.set := by
  have hN : cfg0.N = 32 := N_0
  have h0 : (i 0).val < 512 := idx2_lt0 i
  have h1 : (i 1).val < 1 := idx2_lt1 i
  have ht : (i 0).val / 16 < cfg0.N := by rw [hN]; omega
  refine ⟨⟨(i 0).val / 16, ht⟩, flush0_4 _, ?_⟩
  rw [mem_blk]
  have e40 := (idx_facts ⟨(i 0).val / 16, ht⟩).2.2.2.2.1
  have e41 := (idx_facts ⟨(i 0).val / 16, ht⟩).2.2.2.2.2
  intro a
  match a with
  | ⟨0, _⟩ =>
    show win0_4.index ⟨(i 0).val / 16, ht⟩ (0 : Fin 2) * 16 ≤ (i 0).val
      ∧ (i 0).val < win0_4.index ⟨(i 0).val / 16, ht⟩ (0 : Fin 2) * 16 + 16
    rw [e40]
    show (i 0).val / 16 * 16 ≤ (i 0).val ∧ (i 0).val < (i 0).val / 16 * 16 + 16
    omega
  | ⟨1, _⟩ =>
    show win0_4.index ⟨(i 0).val / 16, ht⟩ (1 : Fin 2) * 1 ≤ (i 1).val
      ∧ (i 1).val < win0_4.index ⟨(i 0).val / 16, ht⟩ (1 : Fin 2) * 1 + 1
    rw [e41]
    omega

/-- THE RESULT COLUMN after the region: the column of scores. -/
theorem final (c : Dev nD) : (dats m 0 c).arrAt 4 cfg0.N
    = scoreColumn (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- THE PROGRAM'S RESULT after the host's reshape: the vector of scores. -/
theorem result_eq (c : Dev nD) :
    Pipeline.afterTail₀ cfgs (dats m) 0 (V0 m) [hostOps1] c main_v1
      = scoreVec (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v1) = _
  after_results
  have hA : Pipeline.withArrays (cfgs 0).spec c (V0 m c) (fun w => (dats m 0 c).arrAt w (cfgs 0).N)
        (Proc.devRef .tc main_v0)
      = scoreColumn (m ((c : Thread nD τ).loc main_arg0)) (m ((c : Thread nD τ).loc main_arg1))
          (m ((c : Thread nD τ).loc main_arg2)) (m ((c : Thread nD τ).loc main_arg3)) :=
    (Pipeline.withArrays_arr spec0 launch0.win.arr_inj c _ _ 4).trans (final m c)
  rw [hA]
  funext i
  obtain ⟨n, rfl⟩ : ∃ n : Fin 512, i = ix1 n := ⟨i 0, eq_ix1 i⟩
  show shapeCast S512 (scoreColumn _ _ _ _) _ (ix1 n) = _
  refine (shapeCast_apply _ _ (ix1 n) (ix2 n (0 : Fin 1)) ?_).trans rfl
  rw [Shape.rowMajor_val_two, Shape.rowMajor_val_one]
  show n.val * 1 + 0 = n.val
  omega

/-- The kernel's run, read: the result is the vector of scores of the argument arrays, which end unchanged. -/
theorem run : θ_run defs (onTc (τ := τ) (main (F := Ideal))) ⟨m, fun _ => 0, ρ⟩ fun r => ∀ c : Dev nD,
      r.2.mem ((c.tc : Thread nD τ).loc main_v1)
        = scoreVec (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v1 (Pipeline.mem_restRefs_of main_v1 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KRun

end
-- ==== Proof.RefValue.lean ====
/-
  The reference program computes the score of every batch element.

  Its stages are read one at a time at an index: the similarity matrix, the row mean, the masked and scaled
  logits, the row maximum, the exponentials and their row sums, the softmax weights, the context vectors, the
  two length normalisations, the cosines and their mean.  At batch element n each stage is the corresponding
  quantity of the n-th slices of the four argument arrays.
-/
import proofs.«117326_j85452669321805_2_alg».proof.Proof.Gen.ReferenceIdeal.Read
import proofs.«117326_j85452669321805_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx FragSim RowReduce

/-- Two indices of a rank-3 shape with the same coordinates are equal. -/
macro "idx3" : tactic =>
  `(tactic| (funext a; match a with | ⟨0, _⟩ => rfl | ⟨1, _⟩ => rfl | ⟨2, _⟩ => rfl))
/-- Two indices of a rank-2 shape with the same coordinates are equal. -/
macro "idx2" : tactic =>
  `(tactic| (funext a; match a with | ⟨0, _⟩ => rfl | ⟨1, _⟩ => rfl))

abbrev Arr : Type := S512x64x1024.Idx → EReal

variable (x0 x1 x2 x3 : Arr) (n : Fin 512)

/-- The similarity stage at (n, r, u) is the similarity of region r and word u of batch element n. -/
theorem ref_sim (r u : Fin 64) :
    val_main_v0 (F := Ideal) x0 x1 (ix3 n r u) = sim (slice x0 n) (slice x1 n) r u := by
  rw [val_main_v0_apply]
  have el : ∀ k : Fin 1024, lidx_main_v0 (ix3 n r u) k = ix3 n r k := fun k => by idx3
  have er : ∀ k : Fin 1024, ridx_main_v0 (ix3 n r u) k = ix3 n u k := fun k => by idx3
  simp only [el, er]
  rfl

/-- The row-mean stage at (n, r, 0). -/
theorem ref_tau (r : Fin 64) (z : Fin 1) :
    val_main_v4 (F := Ideal) x0 x1 (ix3 n r z) = tau (slice x0 n) (slice x1 n) r := by
  rw [val_main_v4_apply, val_main_v2_apply, val_main_v1_apply, val_main_v3_apply, val_main_cst_0_apply,
    val_main_cst_apply]
  have e : ∀ k : Fin 64, idx_main_v1 (idx_main_v2 (ix3 n r z)) k = ix3 n r k := fun k => by idx3
  simp only [e, ref_sim, Ideal.hostDivf_def, Ideal.ofBits_def, Ideal.ofBits_zero_f32, zero_add]
  rfl

/-- The logit stage at (n, r, u). -/
theorem ref_logit (r u : Fin 64) :
    val_main_v9 (F := Ideal) x0 x1 (ix3 n r u) = logit (slice x0 n) (slice x1 n) r u := by
  rw [val_main_v9_apply, val_main_v7_apply, val_main_v6_apply, val_main_v5_apply, val_main_v8_apply,
    val_main_cst_2_apply, val_main_call0_v1_apply, val_main_call0_v0_apply, val_main_cst_1_apply]
  have e : idx_main_v5 (ix3 n r u) = ix3 n r (0 : Fin 1) := by idx3
  simp only [e, ref_sim, ref_tau, Ideal.mulf_def, Ideal.ofBits_def, Ideal.cmpf_def]
  rfl

/-- The row-maximum stage at (n, r). -/
theorem ref_rowMax (r : Fin 64) :
    val_main_v12 (F := Ideal) x0 x1 (ix2 n r) = rowMax (slice x0 n) (slice x1 n) r := by
  rw [val_main_v12_apply, val_main_v11_apply, val_main_cst_4_apply]
  unfold val_main_v10
  rw [hostReduce_max_row (φ := .f32) (val_main_v9 (F := Ideal) x0 x1) (val_main_cst_3 (F := Ideal))
    reducesTo_S512x64x64_S512x64_d2 (by decide) h_S_ n r, val_main_cst_3_apply]
  simp only [ref_logit, Ideal.maximumf_def, Ideal.ofBits_def, max_negInf]
  rfl

/-- The exponential stage at (n, r, u). -/
theorem ref_ex (r u : Fin 64) :
    val_main_v16 (F := Ideal) x0 x1 (ix3 n r u) = ex (slice x0 n) (slice x1 n) r u := by
  rw [val_main_v16_apply, val_main_v15_apply, val_main_v14_apply, val_main_v13_apply]
  have e : idx_main_v13 (idx_main_v14 (ix3 n r u)) = ix2 n r := by idx2
  simp only [e, ref_logit, ref_rowMax, Ideal.hostUnary_exp_def, Ideal.subf_def]
  rfl

/-- The softmax-weight stage at (n, r, u). -/
theorem ref_attn (r u : Fin 64) :
    val_main_v20 (F := Ideal) x0 x1 (ix3 n r u) = attn (slice x0 n) (slice x1 n) r u := by
  rw [val_main_v20_apply, val_main_v19_apply, val_main_v18_apply, val_main_v17_apply, val_main_cst_5_apply]
  have e : ∀ k : Fin 64, idx_main_v17 (idx_main_v18 (idx_main_v19 (ix3 n r u))) k = ix3 n r k := fun k => by idx3
  simp only [e, ref_ex, Ideal.hostDivf_def, Ideal.ofBits_def, Ideal.ofBits_zero_f32, zero_add]
  rfl

/-- The context stage at (n, r, d). -/
theorem ref_ctx (r : Fin 64) (d : Fin 1024) :
    val_main_v21 (F := Ideal) x0 x1 x3 (ix3 n r d) = ctx (slice x0 n) (slice x1 n) (slice x3 n) r d := by
  rw [val_main_v21_apply]
  have el : ∀ k : Fin 64, lidx_main_v21 (ix3 n r d) k = ix3 n r k := fun k => by idx3
  have er : ∀ k : Fin 64, ridx_main_v21 (ix3 n r d) k = ix3 n k d := fun k => by idx3
  simp only [el, er, ref_attn]
  rfl

/-- The normalised context stage at (n, r, d). -/
theorem ref_unit_ctx (r : Fin 64) (d : Fin 1024) :
    val_main_v26 (F := Ideal) x0 x1 x3 (ix3 n r d)
      = unitRow (ctx (slice x0 n) (slice x1 n) (slice x3 n)) r d := by
  rw [val_main_v26_apply, val_main_v25_apply, val_main_v24_apply, val_main_v23_apply, val_main_cst_6_apply,
    val_main_v22_apply, val_main_call1_v2_apply, val_main_call1_v1_apply, val_main_call1_cst_apply]
  have e : ∀ k : Fin 1024, idx_main_call1_v1 (idx_main_call1_v2 (idx_main_v25 (ix3 n r d))) k = ix3 n r k :=
    fun k => by idx3
  simp only [e, val_main_call1_v0_apply, ref_ctx, Ideal.hostDivf_def, Ideal.addf_def, Ideal.mulf_def,
    Ideal.hostUnary_sqrt_def, Ideal.ofBits_def, Ideal.ofBits_zero_f32, zero_add]
  rfl

/-- The normalised raw-region stage at (n, r, d). -/
theorem ref_unit_raw (r : Fin 64) (d : Fin 1024) :
    val_main_v31 (F := Ideal) x2 (ix3 n r d) = unitRow (slice x2 n) r d := by
  rw [val_main_v31_apply, val_main_v30_apply, val_main_v29_apply, val_main_v28_apply, val_main_cst_7_apply,
    val_main_v27_apply, val_main_call2_v2_apply, val_main_call2_v1_apply, val_main_call2_cst_apply]
  have e : ∀ k : Fin 1024, idx_main_call2_v1 (idx_main_call2_v2 (idx_main_v30 (ix3 n r d))) k = ix3 n r k :=
    fun k => by idx3
  simp only [e, val_main_call2_v0_apply, Ideal.hostDivf_def, Ideal.addf_def, Ideal.mulf_def,
    Ideal.hostUnary_sqrt_def, Ideal.ofBits_def, Ideal.ofBits_zero_f32, zero_add]
  rfl

/-- The cosine stage at (n, r). -/
theorem ref_cosine (r : Fin 64) :
    val_main_v33 (F := Ideal) x0 x1 x2 x3 (ix2 n r)
      = cosine (slice x0 n) (slice x1 n) (slice x2 n) (slice x3 n) r := by
  rw [val_main_v33_apply, val_main_cst_8_apply]
  have e : ∀ k : Fin 1024, idx_main_v33 (ix2 n r) k = ix3 n r k := fun k => by idx3
  simp only [e, val_main_v32_apply, ref_unit_ctx, ref_unit_raw, Ideal.mulf_def, Ideal.ofBits_def,
    Ideal.ofBits_zero_f32, zero_add]
  rfl

/-- The reference's result at batch element n is the score of the n-th slices. -/
theorem ref_score :
    val_main_v36 (F := Ideal) x0 x1 x2 x3 (ix1 n)
      = score (slice x0 n) (slice x1 n) (slice x2 n) (slice x3 n) := by
  rw [val_main_v36_apply, val_main_v35_apply, val_main_cst_10_apply, val_main_v34_apply, val_main_cst_9_apply]
  have e : ∀ k : Fin 64, idx_main_v34 (ix1 n) k = ix2 n k := fun k => by idx2
  simp only [e, ref_cosine, Ideal.hostDivf_def, Ideal.ofBits_def, Ideal.ofBits_zero_f32, zero_add]
  rfl

end Cert.ReferenceIdeal.RefValue

end
-- ==== Proof.lean ====
/-
  The kernel and its reference compute the same scores.

  Per batch element both programs form the 64 × 64 similarity matrix of the masked features, replace the
  entries below their row's mean by -10000, scale by 9 and take the row-wise softmax, mix the raw word features
  by these weights into one context vector per region, normalise the context vectors and the raw region
  vectors by their Euclidean lengths (plus 1e-8), take the 64 inner products of the normalised pairs and
  average them.  The kernel does this for sixteen batch elements per grid point, the reference for all 512
  at once; on the extended reals every operation of the one is the same operation of the other, in the same
  order, so no finiteness of the inputs is used: entry n of either result is the score of batch element n.
  The kernel's idealization rewrote nothing, so it is trivially the kernel's sanctioned idealization; the three
  frames are the kernels' generated frames and the reference's run with its result dropped.
-/
import proofs.«117326_j85452669321805_2_alg».proof.Defs
import proofs.«117326_j85452669321805_2_alg».proof.Proof.Gen.Kernel
import proofs.«117326_j85452669321805_2_alg».proof.Proof.Gen.Kernel.Skeleton
import proofs.«117326_j85452669321805_2_alg».proof.Proof.Gen.Kernel.Launch
import proofs.«117326_j85452669321805_2_alg».proof.Proof.Gen.Kernel.Points
import proofs.«117326_j85452669321805_2_alg».proof.Proof.Gen.Kernel.Frame
import proofs.«117326_j85452669321805_2_alg».proof.Proof.Gen.KernelIdeal
import proofs.«117326_j85452669321805_2_alg».proof.Proof.Gen.KernelIdeal.Skeleton
import proofs.«117326_j85452669321805_2_alg».proof.Proof.Gen.KernelIdeal.Launch
import proofs.«117326_j85452669321805_2_alg».proof.Proof.Gen.KernelIdeal.Points
import proofs.«117326_j85452669321805_2_alg».proof.Proof.Gen.KernelIdeal.Frame
import proofs.«117326_j85452669321805_2_alg».proof.Proof.Gen.ReferenceIdeal
import proofs.«117326_j85452669321805_2_alg».proof.Proof.Gen.ReferenceIdeal.Run
import proofs.«117326_j85452669321805_2_alg».proof.Proof.Gen.ReferenceIdeal.Read
import proofs.«117326_j85452669321805_2_alg».proof.Proof.Gen.Pre_finite_inputs
import proofs.«117326_j85452669321805_2_alg».proof.Proof.KernelRun
import proofs.«117326_j85452669321805_2_alg».proof.Proof.RefValue
import proofs.«117326_j85452669321805_2_alg».proof.Proof.Scores
import Idealize.ShloMosaic.Adequacy
import Idealize.ShloMosaic.Init

noncomputable section

namespace Cert.Proof

open Idealize.ShloMosaic Idealize.ShloMosaic.TcCoe Idealize.ShloMosaic.ValueIdx Idealize.SL.Sem FragSim

/-- The reference's result array is the vector of scores of its argument arrays. -/
theorem reference_scores (x0 x1 x2 x3 : Arr) :
    Cert.ReferenceIdeal.Read.val_main_v36 (F := Ideal) x0 x1 x2 x3 = scoreVec x0 x1 x2 x3 := by
  funext i
  obtain ⟨n, rfl⟩ : ∃ n : Fin 512, i = ix1 n := ⟨i 0, eq_ix1 i⟩
  rw [Cert.ReferenceIdeal.RefValue.ref_score]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2)
    (Cert.ReferenceIdeal.Value.run (F := Ideal) m ρ)

theorem preserves : Cert.preserves_Kernel_KernelIdeal := trivial

/-- Both programs end with the vector of scores of the (agreeing) argument arrays. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2]
  exact reference_scores _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
